-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000x64 : Shape := ⟨2, ![640000, 64]⟩
abbrev S192x128 : Shape := ⟨2, ![192, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : IVec S2x640000 32) (main_arg2 : FVec F S640000x64 .f32) (main_arg3 : FVec F S192x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S192x128 .f32 := Host.absf main_arg3
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S2x640000 : Shape := ⟨2, ![2, 640000]⟩
abbrev S640000x64 : Shape := ⟨2, ![640000, 64]⟩
abbrev S192x128 : Shape := ⟨2, ![192, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x128 : Shape := ⟨2, ![128, 128]⟩
abbrev S64x128 : Shape := ⟨2, ![64, 128]⟩
abbrev S1x128 : Shape := ⟨2, ![1, 128]⟩
abbrev S12800x128 : Shape := ⟨2, ![12800, 128]⟩
abbrev S12800x64 : Shape := ⟨2, ![12800, 64]⟩
abbrev S10000 : Shape := ⟨1, ![10000]⟩
abbrev S10000x1 : Shape := ⟨2, ![10000, 1]⟩

abbrev nBuf : Space → Nat
  | .hbm => 42
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x64, .f32⟩
  | .hbm, ⟨3, _⟩ => ⟨S192x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S10000x128, .bf16⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .bf16⟩
  | .hbm, ⟨19, _⟩ => ⟨S640000x64, .bf16⟩
  | .hbm, ⟨20, _⟩ => ⟨S128x128, .f32⟩
  | .hbm, ⟨21, _⟩ => ⟨S128x128, .bf16⟩
  | .hbm, ⟨22, _⟩ => ⟨S64x128, .f32⟩
  | .hbm, ⟨23, _⟩ => ⟨S64x128, .bf16⟩
  | .hbm, ⟨24, _⟩ => ⟨S1x128, .f32⟩
  | .hbm, ⟨25, _⟩ => ⟨S640000x128, .f32⟩
  | .hbm, ⟨26, _⟩ => ⟨S_, .f32⟩
  | .hbm, ⟨27, _⟩ => ⟨S10000x128, .f32⟩
  | .hbm, ⟨28, _⟩ => ⟨S640000x1, .i32⟩
  | .hbm, ⟨29, _⟩ => ⟨S10000x128, .f32⟩
  | .hbm, ⟨30, _⟩ => ⟨S_, .f32⟩
  | .hbm, ⟨31, _⟩ => ⟨S640000, .f32⟩
  | .hbm, ⟨32, _⟩ => ⟨S_, .f32⟩
  | .hbm, ⟨33, _⟩ => ⟨S10000, .f32⟩
  | .hbm, ⟨34, _⟩ => ⟨S640000x1, .i32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x128, .f32⟩
  | .hbm, ⟨41, _⟩ => ⟨S10000x128, .f32⟩
  | .local _ .vmem, ⟨0, _⟩ => ⟨S12800x128, .bf16⟩
  | .local _ .vmem, ⟨1, _⟩ => ⟨S12800x128, .bf16⟩
  | .local _ .vmem, ⟨2, _⟩ => ⟨S12800x64, .bf16⟩
  | .local _ .vmem, ⟨3, _⟩ => ⟨S12800x64, .bf16⟩
  | .local _ .vmem, ⟨4, _⟩ => ⟨S128x128, .bf16⟩
  | .local _ .vmem, ⟨5, _⟩ => ⟨S64x128, .bf16⟩
  | .local _ .vmem, ⟨6, _⟩ => ⟨S1x128, .f32⟩
  | .local _ .vmem, ⟨7, _⟩ => ⟨S12800x128, .f32⟩
  | .local _ .vmem, ⟨8, _⟩ => ⟨S12800x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S12800x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S192x128_S128x128_0_0 : S192x128.Slices ![0, 0] S128x128
  slices_S192x128_S64x128_128_0 : S192x128.Slices ![128, 0] S64x128
  shapeCasts_S128_S1x128 : S128.ShapeCasts S1x128
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12800x128 : S1x128.Broadcasts S12800x128
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  dot_S12800x128_S128x128_S12800x128_1_0_0_1_n_n_wf : DotDims.WF S12800x128 S128x128 S12800x128 [1] [0] [0] [1] [] []
  dot_S12800x64_S64x128_S12800x128_1_0_0_1_n_n_wf : DotDims.WF S12800x64 S64x128 S12800x128 [1] [0] [0] [1] [] []
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x128.size a ≤ S640000x128.size a
  hwx0_0 : ∀ i : grid0.Coords, EltTy.bits .bf16 = 32 ∨ (Rect.block (s := S640000x128) S12800x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x64.size a ≤ S640000x64.size a
  hwx0_1 : ∀ i : grid0.Coords, EltTy.bits .bf16 = 32 ∨ (Rect.block (s := S640000x64) S12800x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S12800x128.size a ≤ S640000x128.size a
  hwx0_5 : ∀ i : grid0.Coords, EltTy.bits .f32 = 32 ∨ (Rect.block (s := S640000x128) S12800x128.size (cc0_transform_5 i) (hinb0_5 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf
def dot_S12800x64_S64x128_S12800x128_1_0_0_1_n_n : DotDims S12800x64 S64x128 S12800x128 where
  lhsContracting := [1]
  rhsContracting := [0]
  lhsNonContracting := [0]
  rhsNonContracting := [1]
  lhsBatch := []
  rhsBatch := []
  wf := dot_S12800x64_S64x128_S12800x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

abbrev win0_0 : Pipeline.Window sig grid0 :=
  Pipeline.Window.ofSpec (Memref.whole main_v11) S12800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S12800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S12800x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000x64 : Shape := ⟨2, ![640000, 64]⟩
abbrev S192x128 : Shape := ⟨2, ![192, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x192 : Shape := ⟨2, ![640000, 192]⟩
abbrev S1x128 : Shape := ⟨2, ![1, 128]⟩
abbrev S10000 : Shape := ⟨1, ![10000]⟩
abbrev S10000x1 : Shape := ⟨2, ![10000, 1]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x64, .f32⟩
  | .hbm, ⟨3, _⟩ => ⟨S192x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S640000x192, .f32⟩
  | .hbm, ⟨19, _⟩ => ⟨S640000x128, .f32⟩
  | .hbm, ⟨20, _⟩ => ⟨S1x128, .f32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S10000x128, .f32⟩
  | .hbm, ⟨25, _⟩ => ⟨S640000x1, .i32⟩
  | .hbm, ⟨26, _⟩ => ⟨S10000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S10000, .f32⟩
  | .hbm, ⟨31, _⟩ => ⟨S640000x1, .i32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x1, .f32⟩
  | .hbm, ⟨37, _⟩ => ⟨S10000x128, .f32⟩
  | .hbm, ⟨38, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x64_S640000x192_d1 : Shape.Concatenates [S640000x128, S640000x64] S640000x192 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  dot_S640000x192_S192x128_S640000x128_1_0_0_1_n_n_wf : DotDims.WF S640000x192 S192x128 S640000x128 [1] [0] [0] [1] [] []
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x192_S192x128_S640000x128_1_0_0_1_n_n : DotDims S640000x192 S192x128 S640000x128 where
  lhsContracting := [1]
  rhsContracting := [0]
  lhsNonContracting := [0]
  rhsNonContracting := [1]
  lhsBatch := []
  rhsBatch := []
  wf := dot_S640000x192_S192x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

class Facts : Prop extends Facts₀ where

variable [Facts]
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.EdgeRow.lean ====
/-
  The edge-wise linear layer as one function of its operands.

  For every edge `e` the layer joins the feature row of the edge's source node (`A` numbers) with the edge's
  own feature row (`B` numbers) and applies a linear map with `N` outputs. Written with the weight matrix
  cut into its first `A` rows `W1` and its last `B` rows `W2`, output `j` of edge `e` is

      (∑ k < A, XS (e, k) · W1 (k, j)) + (∑ k < B, EF (e, k) · W2 (k, j)) + BB (0, j).

  Written with the joined row and the whole matrix it is one sum over `A + B` terms plus the bias; the two
  agree because a sum over `A + B` consecutive terms is the sum of its first `A` and its last `B` terms.
  That uses only that addition of extended reals is commutative and associative, so it holds at the
  infinities too.
-/
import Idealize.ShloMosaic.Lib.ValueIdx

noncomputable section

namespace Cert.EdgeLinear

open Idealize.ShloMosaic Idealize.ShloMosaic.ValueIdx

variable {E A B N : ℕ}

/-- Output `j` of edge `e`: node part, edge part, bias. -/
def edgeRow (XS : (⟨2, ![E, A]⟩ : Shape).Idx → EReal) (EF : (⟨2, ![E, B]⟩ : Shape).Idx → EReal)
    (W1 : (⟨2, ![A, N]⟩ : Shape).Idx → EReal) (W2 : (⟨2, ![B, N]⟩ : Shape).Idx → EReal)
    (BB : (⟨2, ![1, N]⟩ : Shape).Idx → EReal) (e : Fin E) (j : Fin N) : EReal :=
  (∑ k : Fin A, XS (ix2 e k) * W1 (ix2 k j)) + (∑ k : Fin B, EF (ix2 e k) * W2 (ix2 k j))
    + BB (ix2 (0 : Fin 1) j)

/-- The layer over all edges, as an `E × N` array. -/
def edgeLinear (XS : (⟨2, ![E, A]⟩ : Shape).Idx → EReal) (EF : (⟨2, ![E, B]⟩ : Shape).Idx → EReal)
    (W1 : (⟨2, ![A, N]⟩ : Shape).Idx → EReal) (W2 : (⟨2, ![B, N]⟩ : Shape).Idx → EReal)
    (BB : (⟨2, ![1, N]⟩ : Shape).Idx → EReal) : (⟨2, ![E, N]⟩ : Shape).Idx → EReal :=
  fun i => edgeRow XS EF W1 W2 BB ⟨(i 0).val, idx2_lt0 i⟩ ⟨(i 1).val, idx2_lt1 i⟩

/-- A joined row against the whole matrix: when the first `A` factors are the node part's and the last `B`
    the edge part's, the one sum over `A + B` terms plus the bias is `edgeRow`. -/
theorem joined_eq_edgeRow (XS : (⟨2, ![E, A]⟩ : Shape).Idx → EReal) (EF : (⟨2, ![E, B]⟩ : Shape).Idx → EReal)
    (W1 : (⟨2, ![A, N]⟩ : Shape).Idx → EReal) (W2 : (⟨2, ![B, N]⟩ : Shape).Idx → EReal)
    (BB : (⟨2, ![1, N]⟩ : Shape).Idx → EReal) (e : Fin E) (j : Fin N)
    (c w : Fin (A + B) → EReal) (b : EReal)
    (hc1 : ∀ k : Fin A, c (Fin.castAdd B k) = XS (ix2 e k)) (hw1 : ∀ k : Fin A, w (Fin.castAdd B k) = W1 (ix2 k j))
    (hc2 : ∀ k : Fin B, c (Fin.natAdd A k) = EF (ix2 e k)) (hw2 : ∀ k : Fin B, w (Fin.natAdd A k) = W2 (ix2 k j))
    (hb : b = BB (ix2 (0 : Fin 1) j)) :
    (∑ k : Fin (A + B), c k * w k) + b = edgeRow XS EF W1 W2 BB e j := by
  unfold edgeRow
  rw [Fin.sum_univ_add, hb]
  simp only [hc1, hw1, hc2, hw2]

end Cert.EdgeLinear

end
-- ==== Proof.Tile.lean ====
/-
  One tile of the edge-wise linear layer, entry by entry.

  The body of the tiled unit takes a block of 12800 edges: the rows `xs` of gathered source-node features
  (128 columns), the rows `ef` of edge features (64 columns), the two weight blocks `w1` (128 × 128) and
  `w2` (64 × 128) and the bias row `bb` (1 × 128), and stores `xs · w1 + ef · w2 + bb`. Read at the ideal
  values — a change of float format is the identity, a product into the zero accumulator is the plain sum
  of products — entry `(p, q)` of what it stores is

      (∑ k < 128, xs (p, k) · w1 (k, q)) + (∑ k < 64, ef (p, k) · w2 (k, q)) + bb (0, q).
-/
import proofs.«132562_j24575802868350_1_alg».proof.Proof.Gen.KernelIdeal.Skeleton
import proofs.«132562_j24575802868350_1_alg».proof.Proof.LibPlainDot
import proofs.«132562_j24575802868350_1_alg».proof.Proof.EdgeRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen

/-- The node-feature product contracts the left operand's columns against the right operand's rows. -/
theorem plain_node : Cert.PlainDot.IsPlain dot_S12800x128_S128x128_S12800x128_1_0_0_1_n_n :=
  ⟨rfl, rfl, rfl, rfl, rfl, rfl⟩

/-- So does the edge-feature product. -/
theorem plain_edge : Cert.PlainDot.IsPlain dot_S12800x64_S64x128_S12800x128_1_0_0_1_n_n :=
  ⟨rfl, rfl, rfl, rfl, rfl, rfl⟩

/-- Entry `(p, q)` of the stored tile: the two sums of products and the bias of column `q`. -/
theorem stored_apply (xs : FVec Ideal S12800x128 .bf16) (ef : FVec Ideal S12800x64 .bf16)
    (w1 : FVec Ideal S128x128 .bf16) (w2 : FVec Ideal S64x128 .bf16) (bb : FVec Ideal S1x128 .f32)
    (p : Fin 12800) (q : Fin 128) :
    k0_pay1 (F := Ideal) xs ef w1 w2 bb (ix2 p q)
      = (∑ k : Fin 128, xs (ix2 p k) * w1 (ix2 k q)) + (∑ k : Fin 64, ef (ix2 p k) * w2 (ix2 k q))
        + bb (ix2 (0 : Fin 1) q) := by
  unfold k0_pay1
  simp only [shapeCast_self]
  rw [addf_apply, addf_apply]
  refine congrArg₂ (· + ·) (congrArg₂ (· + ·) ?_ ?_) ?_
  · exact (Ideal.matmul_constant_zero_apply _ none xs w1 (ix2 p q)).trans
      (Cert.PlainDot.sum_contr _ plain_node xs w1 p q)
  · exact (Ideal.matmul_constant_zero_apply _ none ef w2 (ix2 p q)).trans
      (Cert.PlainDot.sum_contr _ plain_edge ef w2 p q)
  · exact broadcastTo_1b_ab_apply bb _ p q

/-- The same entry against whole arrays. If row `y 0` of the two edge blocks is row `e` of the arrays `XS` and
    `EF`, the weight blocks and the bias row are the whole arrays `W1`, `W2`, `BB`, and `j` is column `y 1`, then
    the stored tile at `y` is output `j` of edge `e`. -/
theorem stored_eq_edgeRow (xs : FVec Ideal S12800x128 .bf16) (ef : FVec Ideal S12800x64 .bf16)
    (w1 : FVec Ideal S128x128 .bf16) (w2 : FVec Ideal S64x128 .bf16) (bb : FVec Ideal S1x128 .f32)
    (XS : FVec Ideal S640000x128 .bf16) (EF : FVec Ideal S640000x64 .bf16)
    (W1 : FVec Ideal S128x128 .bf16) (W2 : FVec Ideal S64x128 .bf16) (BB : FVec Ideal S1x128 .f32)
    (y : S12800x128.Idx) (e : Fin 640000) (j : Fin 128) (hj : (y 1).val = j.val)
    (hxs : ∀ k : Fin 128, xs (ix2 ⟨(y 0).val, idx2_lt0 y⟩ k) = XS (ix2 e k))
    (hef : ∀ k : Fin 64, ef (ix2 ⟨(y 0).val, idx2_lt0 y⟩ k) = EF (ix2 e k))
    (hw1 : w1 = W1) (hw2 : w2 = W2) (hbb : bb = BB) :
    k0_pay1 (F := Ideal) xs ef w1 w2 bb y = Cert.EdgeLinear.edgeRow XS EF W1 W2 BB e j := by
  subst hw1 hw2 hbb
  have hy : y = ix2 ⟨(y 0).val, idx2_lt0 y⟩ j := funext fun a => by
    match a with
    | ⟨0, _⟩ => rfl
    | ⟨1, _⟩ => exact Fin.ext hj
  refine (congrArg (k0_pay1 (F := Ideal) xs ef w1 w2 bb) hy).trans ?_
  rw [stored_apply]
  unfold Cert.EdgeLinear.edgeRow
  simp only [hxs, hef]

end Cert.KernelIdeal.Tile

end
-- ==== Proof.Blocks.lean ====
/-
  From tiles to the whole array of edge outputs.

  The tiled unit runs at fifty grid points. At point `t` it is handed rows `12800·t … 12800·t + 12799` of the
  gathered node features and of the edge features, the two weight blocks and the bias row whole, and writes
  back rows `12800·t … 12800·t + 12799` of the array of edge outputs. Entry `(r, q)` of what point `t` writes
  is therefore output `q` of edge `12800·t + r` of the layer applied to the arrays the unit was entered
  with; and since the fifty row blocks fill the 640000 rows (edge `e` lies in block `e / 12800`), the array
  ends holding the layer of those arrays.
-/
import proofs.«132562_j24575802868350_1_alg».proof.Proof.Gen.KernelIdeal.Frame
import proofs.«132562_j24575802868350_1_alg».proof.Proof.Tile
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.EdgeLinear

variable (m : (ℓ : Loc nD τ sig) → Buf (Elt Ideal) ℓ)

/-- A block read or written from its first row and column. -/
theorem hz : (![0, 0] : Fin 2 → Nat) = fun _ => 0 := funext fun a => by fin_cases a <;> rfl

/-- The block index of each operand at grid point `t`: the two edge-wise operands and the result move with the
    point along the rows, the weights and the bias stay at block (0, 0). Decided over the fifty points. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer applied to the five arrays as the tiled unit finds them. -/
abbrev result (c : Dev nD) : S640000x128.Idx → EReal :=
  edgeLinear (E := 640000) (A := 128) (B := 64) (N := 128)
    (V m c main_v11 : S640000x128.Idx → EReal) (V m c main_v12 : S640000x64.Idx → EReal)
    (V m c main_v14 : S128x128.Idx → EReal) (V m c main_v16 : S64x128.Idx → EReal) (V m c main_v17 : S1x128.Idx → EReal)

/-- What grid point `t` writes back is block `t` of that layer: the tile's entry `(r, q)` reads row `r` of the two
    edge-wise blocks, which is row `12800·t + r` of their arrays, and the weights and bias whole. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz]
  simp only [View.ld_unit_zero (S := S12800x128) hz, View.ld_unit_zero (S := S12800x64) hz,
    View.ld_unit_zero (S := S128x128) hz, View.ld_unit_zero (S := S64x128) hz, View.ld_unit_zero (S := S1x128) hz]
  obtain ⟨e00, e01, e10, e11, e20, e21, e30, e31, e40, e41, e50, e51⟩ := index_facts t
  funext y
  show k0_pay1 (F := Ideal) (iblk m c 0 t) (iblk m c 1 t) (iblk m c 2 t) (iblk m c 3 t) (iblk m c 4 t) y
      = edgeRow (E := 640000) (A := 128) (B := 64) (N := 128)
          (V m c main_v11 : S640000x128.Idx → EReal) (V m c main_v12 : S640000x64.Idx → EReal)
          (V m c main_v14 : S128x128.Idx → EReal) (V m c main_v16 : S64x128.Idx → EReal) (V m c main_v17 : S1x128.Idx → EReal)
          ⟨((((cfg0.win 5).blk t).view.emb y) 0).val, idx2_lt0 (((cfg0.win 5).blk t).view.emb y)⟩
          ⟨((((cfg0.win 5).blk t).view.emb y) 1).val, idx2_lt1 (((cfg0.win 5).blk t).view.emb y)⟩
  refine Tile.stored_eq_edgeRow (iblk m c 0 t) (iblk m c 1 t) (iblk m c 2 t) (iblk m c 3 t) (iblk m c 4 t)
    (V m c main_v11) (V m c main_v12) (V m c main_v14) (V m c main_v16) (V m c main_v17) y
    ⟨((((cfg0.win 5).blk t).view.emb y) 0).val, idx2_lt0 (((cfg0.win 5).blk t).view.emb y)⟩
    ⟨((((cfg0.win 5).blk t).view.emb y) 1).val, idx2_lt1 (((cfg0.win 5).blk t).view.emb y)⟩ ?_ ?_ ?_ ?_ ?_ ?_
  · show (y 1).val = win0_5.index t (1 : Fin 2) * 128 + 1 * (y 1).val
    rw [e51]; omega
  · intro k
    unfold iblk
    rw [View.read_apply]
    show V m c main_v11 (((cfg0.win 0).blk t).view.emb _) = V m c main_v11 _
    refine congrArg _ (funext fun a => Fin.ext ?_)
    match a with
    | ⟨0, _⟩ =>
      show win0_0.index t (0 : Fin 2) * 12800 + 1 * (y 0).val = win0_5.index t (0 : Fin 2) * 12800 + 1 * (y 0).val
      rw [e00, e50]
    | ⟨1, _⟩ =>
      show win0_0.index t (1 : Fin 2) * 128 + 1 * k.val = k.val
      rw [e01]; omega
  · intro k
    unfold iblk
    rw [View.read_apply]
    show V m c main_v12 (((cfg0.win 1).blk t).view.emb _) = V m c main_v12 _
    refine congrArg _ (funext fun a => Fin.ext ?_)
    match a with
    | ⟨0, _⟩ =>
      show win0_1.index t (0 : Fin 2) * 12800 + 1 * (y 0).val = win0_5.index t (0 : Fin 2) * 12800 + 1 * (y 0).val
      rw [e10, e50]
    | ⟨1, _⟩ =>
      show win0_1.index t (1 : Fin 2) * 64 + 1 * k.val = k.val
      rw [e11]; omega
  · funext x
    unfold iblk
    rw [View.read_apply]
    show V m c main_v14 (((cfg0.win 2).blk t).view.emb x) = V m c main_v14 x
    refine congrArg _ (funext fun a => Fin.ext ?_)
    match a with
    | ⟨0, _⟩ =>
      show win0_2.index t (0 : Fin 2) * 128 + 1 * (x 0).val = (x 0).val
      rw [e20]; omega
    | ⟨1, _⟩ =>
      show win0_2.index t (1 : Fin 2) * 128 + 1 * (x 1).val = (x 1).val
      rw [e21]; omega
  · funext x
    unfold iblk
    rw [View.read_apply]
    show V m c main_v16 (((cfg0.win 3).blk t).view.emb x) = V m c main_v16 x
    refine congrArg _ (funext fun a => Fin.ext ?_)
    match a with
    | ⟨0, _⟩ =>
      show win0_3.index t (0 : Fin 2) * 64 + 1 * (x 0).val = (x 0).val
      rw [e30]; omega
    | ⟨1, _⟩ =>
      show win0_3.index t (1 : Fin 2) * 128 + 1 * (x 1).val = (x 1).val
      rw [e31]; omega
  · funext x
    unfold iblk
    rw [View.read_apply]
    show V m c main_v17 (((cfg0.win 4).blk t).view.emb x) = V m c main_v17 x
    refine congrArg _ (funext fun a => Fin.ext ?_)
    match a with
    | ⟨0, _⟩ =>
      show win0_4.index t (0 : Fin 2) * 1 + 1 * (x 0).val = (x 0).val
      rw [e40]; omega
    | ⟨1, _⟩ =>
      show win0_4.index t (1 : Fin 2) * 128 + 1 * (x 1).val = (x 1).val
      rw [e41]; omega

/-- An index of the array of edge outputs lies in grid point `t`'s block iff each coordinate lies in the block's
    range on its axis. -/
theorem mem_blk (t : Fin cfg0.N) (i : S640000x128.Idx) :
    i ∈ ((cfg0.win 5).blk t).view.set ↔ ∀ a : Fin 2, win0_5.index t a * S12800x128.size a ≤ (i a).val
      ∧ (i a).val < win0_5.index t a * S12800x128.size a + S12800x128.size a := by
  show i ∈ ((View.whole main_v18).slice (win0_5.rect t)).set ↔ _
  rw [View.set_slice_whole, Rect.mem_set_unit]
  exact Iff.rfl

/-- Every block index below 50 is some grid point's. -/
theorem index_onto : ∀ q : Fin 50, ∃ t : Fin cfg0.N, win0_5.index t = ![q.val, 0] :=
  (by decide +kernel : ∀ q : Fin 50, ∃ t : Fin grid0.N, win0_5.index t = ![q.val, 0])

/-- The fifty blocks of 12800 edges fill the array: edge `r` lies in block `r / 12800`. -/
theorem cover (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  obtain ⟨t, ht⟩ := index_onto ⟨(i 0).val / 12800, by omega⟩
  have q0 : win0_5.index t (0 : Fin 2) = (i 0).val / 12800 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 12800 ≤ (i 0).val ∧ (i 0).val < win0_5.index t (0 : Fin 2) * 12800 + 12800
    omega
  | ⟨1, _⟩ =>
    show win0_5.index t (1 : Fin 2) * 128 ≤ (i 1).val ∧ (i 1).val < win0_5.index t (1 : Fin 2) * 128 + 128
    omega

/-- After the run the array of edge outputs is the layer applied to the arrays the region was entered with. -/
theorem final (c : Dev nD) : (dats m 0 c).arrAt 5 cfg0.N = result m c :=
  (dats m 0 c).arrAt_eq_of_cover 5 (result m c) (fun t _ => flushed_eq m c t) cover

end Cert.KernelIdeal.Blocks

end
-- ==== Proof.Host.lean ====
/-
  The host lines around the tiled unit.

  Before the tiled unit the program prepares its five operands from the arguments: the rows of the node
  features picked by each edge's source index (`gathered`), the edge features, the first 128 and the last 64
  rows of the weight matrix, and the bias as a one-row matrix. Every change of float format on the way is
  the identity at the ideal values. After the tiled unit the program averages the edge outputs over the
  edges arriving at each node (`nodeMean`): the sum over those edges divided by their number, or by one
  for a node no edge arrives at.
-/
import proofs.«132562_j24575802868350_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

open Idealize.ShloMosaic Idealize.ShloMosaic.TcCoe Idealize.SL.Sem
open Idealize.ShloMosaic.Pipeline (Dat)

namespace Cert.KernelIdeal.HostSide

open Cert.KernelIdeal Cert.KernelIdeal.Gen Idealize.ShloMosaic.StableHlo

/-- Row `r` of the edge list as a flat array of 640000 indices. -/
def edgeEnds (r : Nat) (h : S2x640000.Slices ![r, 0] S1x640000) (a1 : (⟨S2x640000, .i32⟩ : BufTy).Contents (Elt Ideal)) :
    (⟨S640000, .i32⟩ : BufTy).Contents (Elt Ideal) :=
  shapeCast S640000 (extractStridedSlice S1x640000 ![r, 0] a1 h) shapeCasts_S1x640000_S640000

/-- Each edge's source index as the row lookup takes it: a negative index counts from the end. -/
def srcIndex (a1 : (⟨S2x640000, .i32⟩ : BufTy).Contents (Elt Ideal)) : (⟨S640000x1, .i32⟩ : BufTy).Contents (Elt Ideal) :=
  broadcastInDim S640000x1 ![0] bcast_S640000_S640000x1_0
    (select (cmpi .slt (edgeEnds 0 slices_S2x640000_S1x640000_0_0 a1) (broadcastInDim S640000 ![] bcast_S_S640000 (constantI S_ 32 0#32)))
      (addi (edgeEnds 0 slices_S2x640000_S1x640000_0_0 a1) (broadcastInDim S640000 ![] bcast_S_S640000 (constantI S_ 32 10000#32)))
      (edgeEnds 0 slices_S2x640000_S1x640000_0_0 a1))

/-- The node-feature rows of the edges' source nodes. -/
def gathered (a0 : (⟨S10000x128, .f32⟩ : BufTy).Contents (Elt Ideal)) (a1 : (⟨S2x640000, .i32⟩ : BufTy).Contents (Elt Ideal)) :
    (⟨S640000x128, .bf16⟩ : BufTy).Contents (Elt Ideal) :=
  Host.gather gather_S10000x128_S640000x1_S640000x128_1_0_n_n_0_1_1128
    (truncf .bf16 (a0 : FVec Ideal S10000x128 .f32) bitsLt_bf16_f32 : FVec Ideal S10000x128 .bf16) (srcIndex a1)

/-- The edge features as the tiled unit takes them. -/
def edgeFeat (a2 : (⟨S640000x64, .f32⟩ : BufTy).Contents (Elt Ideal)) : (⟨S640000x64, .bf16⟩ : BufTy).Contents (Elt Ideal) :=
  (truncf .bf16 (a2 : FVec Ideal S640000x64 .f32) bitsLt_bf16_f32 : FVec Ideal S640000x64 .bf16)

/-- The first 128 rows of the weight matrix: the node part. -/
def nodeWeights (a3 : (⟨S192x128, .f32⟩ : BufTy).Contents (Elt Ideal)) : (⟨S128x128, .bf16⟩ : BufTy).Contents (Elt Ideal) :=
  (truncf .bf16 (extractStridedSlice S128x128 ![0, 0] a3 slices_S192x128_S128x128_0_0 : FVec Ideal S128x128 .f32) bitsLt_bf16_f32 :
    FVec Ideal S128x128 .bf16)

/-- Its last 64 rows: the edge part. -/
def edgeWeights (a3 : (⟨S192x128, .f32⟩ : BufTy).Contents (Elt Ideal)) : (⟨S64x128, .bf16⟩ : BufTy).Contents (Elt Ideal) :=
  (truncf .bf16 (extractStridedSlice S64x128 ![128, 0] a3 slices_S192x128_S64x128_128_0 : FVec Ideal S64x128 .f32) bitsLt_bf16_f32 :
    FVec Ideal S64x128 .bf16)

/-- The bias as a one-row matrix. -/
def biasRow (a4 : (⟨S128, .f32⟩ : BufTy).Contents (Elt Ideal)) : (⟨S1x128, .f32⟩ : BufTy).Contents (Elt Ideal) :=
  shapeCast S1x128 a4 shapeCasts_S128_S1x128

/-- The mean, over the edges arriving at each node, of the edge outputs `h`, for edges with destination indices
    `dst`: the sums scattered to the destination nodes, divided by the scattered count of ones where that is at
    least one. -/
def nodeMeanOf (dst : (⟨S640000, .i32⟩ : BufTy).Contents (Elt Ideal)) (h : (⟨S640000x128, .f32⟩ : BufTy).Contents (Elt Ideal)) :
    (⟨S10000x128, .f32⟩ : BufTy).Contents (Elt Ideal) :=
  Host.divf (F := Ideal)
    (Host.scatterAdd (F := Ideal) scatter_S10000x128_S640000x1_S640000x128_1_0_0_1
      (broadcastInDim S10000x128 ![] bcast_S_S10000x128 (constant (F := Ideal) S_ .f32 0x00000000#32))
      (broadcastInDim S640000x1 ![0] bcast_S640000_S640000x1_0 dst)
      h)
    (broadcastInDim S10000x128 ![0, 1] bcast_S10000x1_S10000x128_0_1
      (broadcastInDim S10000x1 ![0] bcast_S10000_S10000x1_0
        (maximumf
          (Host.scatterAdd (F := Ideal) scatter_S10000_S640000x1_S640000_n_0_0_1
            (broadcastInDim S10000 ![] bcast_S_S10000 (constant (F := Ideal) S_ .f32 0x00000000#32))
            (broadcastInDim S640000x1 ![0] bcast_S640000_S640000x1_0 dst)
            (broadcastInDim S640000 ![] bcast_S_S640000 (constant (F := Ideal) S_ .f32 0x3F800000#32)))
          (broadcastInDim S10000 ![] bcast_S_S10000 (constant (F := Ideal) S_ .f32 0x3F800000#32)))))

/-- The same with the destination indices read off row 1 of the edge list. -/
def nodeMean (a1 : (⟨S2x640000, .i32⟩ : BufTy).Contents (Elt Ideal)) (h : (⟨S640000x128, .f32⟩ : BufTy).Contents (Elt Ideal)) :
    (⟨S10000x128, .f32⟩ : BufTy).Contents (Elt Ideal) :=
  nodeMeanOf (edgeEnds 1 slices_S2x640000_S1x640000_1_0 a1) h

variable (m : (ℓ : Loc nD τ sig) → Buf (Elt Ideal) ℓ)

/-! ### What the tiled unit's operands hold when it is entered -/

theorem V_main_v11 (c : Dev nD) : (V m c main_v11 : S640000x128.Idx → EReal)
    = gathered (m ((c : Thread nD τ).loc main_arg0)) (m ((c : Thread nD τ).loc main_arg1)) := by
  show StableHlo.after hostOps0 (fun b => m (c, b)) (Proc.devRef .tc main_v11) = _
  after_results <;> rfl

theorem V_main_v12 (c : Dev nD) : (V m c main_v12 : S640000x64.Idx → EReal)
    = edgeFeat (m ((c : Thread nD τ).loc main_arg2)) := by
  show StableHlo.after hostOps0 (fun b => m (c, b)) (Proc.devRef .tc main_v12) = _
  after_results <;> rfl

theorem V_main_v14 (c : Dev nD) : (V m c main_v14 : S128x128.Idx → EReal)
    = nodeWeights (m ((c : Thread nD τ).loc main_arg3)) := by
  show StableHlo.after hostOps0 (fun b => m (c, b)) (Proc.devRef .tc main_v14) = _
  after_results <;> rfl

theorem V_main_v16 (c : Dev nD) : (V m c main_v16 : S64x128.Idx → EReal)
    = edgeWeights (m ((c : Thread nD τ).loc main_arg3)) := by
  show StableHlo.after hostOps0 (fun b => m (c, b)) (Proc.devRef .tc main_v16) = _
  after_results <;> rfl

theorem V_main_v17 (c : Dev nD) : (V m c main_v17 : S1x128.Idx → EReal)
    = biasRow (m ((c : Thread nD τ).loc main_arg4)) := by
  show StableHlo.after hostOps0 (fun b => m (c, b)) (Proc.devRef .tc main_v17) = _
  after_results <;> rfl

/-- The edges' destination indices, computed before the tiled unit and read after it. -/
theorem V_main_v3 (c : Dev nD) : (V m c main_v3 : S640000.Idx → BitVec 32)
    = edgeEnds 1 slices_S2x640000_S1x640000_1_0 (m ((c : Thread nD τ).loc main_arg1)) := by
  show StableHlo.after hostOps0 (fun b => m (c, b)) (Proc.devRef .tc main_v3) = _
  after_results <;> rfl

/-! ### The program's result from the array the tiled unit leaves -/

theorem result_eq (c : Dev nD) : Pipeline.afterTail₀ cfgs (dats m) 0 (V0 m) [hostOps1] c main_v30
    = nodeMean (m ((c : Thread nD τ).loc main_arg1)) ((dats m 0 c).arrAt 5 cfg0.N) := by
  unfold Pipeline.afterTail₀
  show StableHlo.after hostOps1 _ (Proc.devRef .tc main_v30) = _
  after_results
  exact congrArg₂ nodeMeanOf
    ((Pipeline.withArrays_of_ne spec0 c (V0 m c) (fun w => (dats m 0 c).arrAt w cfg0.N) main_v3
      (by exact (by decide : ∀ w, Pipeline.arrRef spec0 w ≠ main_v3))).trans (V_main_v3 m c))
    (Pipeline.withArrays_arr spec0 launch0.win.arr_inj c (V0 m c) (fun w => (dats m 0 c).arrAt w cfg0.N) 5)

end Cert.KernelIdeal.HostSide

end
-- ==== Proof.Whole.lean ====
/-
  The tiled program's run, read as a value.

  Every run of the tiled program ends with its result at the mean, over each node's incoming edges, of the
  edge-wise linear layer of the arguments: the host lines before the tiled unit prepare its operands, the
  fifty tiles fill the array of edge outputs with the layer, and the host lines after it average them.
-/
import proofs.«132562_j24575802868350_1_alg».proof.Proof.Blocks
import proofs.«132562_j24575802868350_1_alg».proof.Proof.Host

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.HostSide Cert.EdgeLinear

variable (m : (ℓ : Loc nD τ sig) → Buf (Elt Ideal) ℓ) (ρ : Dev nD → PrngReg)

/-- The edge outputs as one function of the five arguments. -/
abbrev layer (c : Dev nD) : S640000x128.Idx → EReal :=
  edgeLinear (E := 640000) (A := 128) (B := 64) (N := 128)
    (gathered (m ((c : Thread nD τ).loc main_arg0)) (m ((c : Thread nD τ).loc main_arg1)))
    (edgeFeat (m ((c : Thread nD τ).loc main_arg2)))
    (nodeWeights (m ((c : Thread nD τ).loc main_arg3)))
    (edgeWeights (m ((c : Thread nD τ).loc main_arg3)))
    (biasRow (m ((c : Thread nD τ).loc main_arg4)))

/-- Equal operands give equal layers. -/
theorem edgeLinear_congr {E A B N : ℕ} {XS XS' : (⟨2, ![E, A]⟩ : Shape).Idx → EReal} {EF EF' : (⟨2, ![E, B]⟩ : Shape).Idx → EReal}
    {W1 W1' : (⟨2, ![A, N]⟩ : Shape).Idx → EReal} {W2 W2' : (⟨2, ![B, N]⟩ : Shape).Idx → EReal}
    {BB BB' : (⟨2, ![1, N]⟩ : Shape).Idx → EReal}
    (h1 : XS = XS') (h2 : EF = EF') (h3 : W1 = W1') (h4 : W2 = W2') (h5 : BB = BB') :
    edgeLinear XS EF W1 W2 BB = edgeLinear XS' EF' W1' W2' BB' := by
  subst h1 h2 h3 h4 h5; rfl

/-- The array the tiles fill is that layer: each operand is what the host lines before the tiled unit made it. -/
theorem filled (c : Dev nD) : (dats m 0 c).arrAt 5 cfg0.N = layer m c :=
  (Blocks.final m c).trans
    (edgeLinear_congr (E := 640000) (A := 128) (B := 64) (N := 128)
      (V_main_v11 m c) (V_main_v12 m c) (V_main_v14 m c) (V_main_v16 m c) (V_main_v17 m c))

/-- The run: the result at the node means of the layer, the arguments unchanged. -/
theorem run : θ_run defs (onTc (τ := τ) (main (F := Ideal))) ⟨m, fun _ => 0, ρ⟩ fun r => ∀ c : Dev nD,
      r.2.mem ((c.tc : Thread nD τ).loc main_v30) = nodeMean (m ((c : Thread nD τ).loc main_arg1)) (layer m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v30 (Pipeline.mem_restRefs_of main_v30 (by decide) (by decide))).trans
        ((result_eq m c).trans (congrArg (nodeMean (m ((c : Thread nD τ).loc main_arg1))) (filled m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.Bridge.lean ====
/-
  The two programs compute one function.

  The reference joins each edge's source-node row with its edge-feature row into one row of 192 numbers and
  multiplies it with the whole 192 × 128 weight matrix. The tiled program multiplies the source-node rows with
  the first 128 rows of the weight matrix and the edge-feature rows with its last 64 rows, and adds the two.
  A sum over 192 consecutive terms is the sum of its first 128 and its last 64 terms (addition of extended
  reals is commutative and associative, so nothing has to be finite), the joined row's first 128 entries are
  the source-node row's and its last 64 the edge-feature row's, and likewise for the rows of the weight
  matrix: the edge outputs agree entry by entry. Both programs then average them over each node's incoming
  edges by the same host lines.
-/
import proofs.«132562_j24575802868350_1_alg».proof.Proof.Gen.ReferenceIdeal.Read
import proofs.«132562_j24575802868350_1_alg».proof.Proof.Host
import proofs.«132562_j24575802868350_1_alg».proof.Proof.EdgeRow
import Idealize.ShloMosaic.Lib.ValueLayout

noncomputable section

namespace Cert.Bridge

open Idealize.ShloMosaic Idealize.ShloMosaic.ValueIdx Cert.EdgeLinear
open Cert.ReferenceIdeal Cert.ReferenceIdeal.Read
open Cert.KernelIdeal.HostSide (gathered edgeFeat nodeWeights edgeWeights biasRow nodeMean)

/-- The edge outputs of the tiled program, as one function of the five arguments. -/
def layer (x0 : (⟨S10000x128, .f32⟩ : BufTy).Contents (Elt Ideal)) (x1 : (⟨S2x640000, .i32⟩ : BufTy).Contents (Elt Ideal))
    (x2 : (⟨S640000x64, .f32⟩ : BufTy).Contents (Elt Ideal)) (x3 : (⟨S192x128, .f32⟩ : BufTy).Contents (Elt Ideal))
    (x4 : (⟨S128, .f32⟩ : BufTy).Contents (Elt Ideal)) : S640000x128.Idx → EReal :=
  edgeLinear (E := 640000) (A := 128) (B := 64) (N := 128) (gathered x0 x1) (edgeFeat x2) (nodeWeights x3) (edgeWeights x3) (biasRow x4)

/-- The row lookup is the same in both programs: the same index computation, and the node features read through a
    change of float format that is the identity. -/
theorem gathered_eq (x0 : (⟨S10000x128, .f32⟩ : BufTy).Contents (Elt Ideal)) (x1 : (⟨S2x640000, .i32⟩ : BufTy).Contents (Elt Ideal)) :
    gathered x0 x1 = val_main_v10 (F := Ideal) x0 x1 := rfl

/-- The reference's edge outputs are the tiled program's, entry by entry. -/
theorem layer_eq_ref (x0 : (⟨S10000x128, .f32⟩ : BufTy).Contents (Elt Ideal)) (x1 : (⟨S2x640000, .i32⟩ : BufTy).Contents (Elt Ideal))
    (x2 : (⟨S640000x64, .f32⟩ : BufTy).Contents (Elt Ideal)) (x3 : (⟨S192x128, .f32⟩ : BufTy).Contents (Elt Ideal))
    (x4 : (⟨S128, .f32⟩ : BufTy).Contents (Elt Ideal)) :
    layer x0 x1 x2 x3 x4 = val_main_v15 (F := Ideal) x0 x1 x2 x3 x4 := by
  funext i
  rw [val_main_v15_apply, val_main_v12_apply, val_main_v14_apply, val_main_v13_apply]
  show edgeRow (E := 640000) (A := 128) (B := 64) (N := 128) (gathered x0 x1) (edgeFeat x2) (nodeWeights x3) (edgeWeights x3)
      (biasRow x4) ⟨(i 0).val, idx2_lt0 i⟩ ⟨(i 1).val, idx2_lt1 i⟩
    = (∑ k : Fin (128 + 64), val_main_v11 (F := Ideal) x0 x1 x2 (lidx_main_v12 i k) * x3 (ridx_main_v12 i k))
      + x4 (idx_main_v13 (idx_main_v14 i))
  symm
  refine joined_eq_edgeRow (A := 128) (B := 64) (gathered x0 x1) (edgeFeat x2) (nodeWeights x3) (edgeWeights x3) (biasRow x4)
    ⟨(i 0).val, idx2_lt0 i⟩ ⟨(i 1).val, idx2_lt1 i⟩
    (fun k => val_main_v11 (F := Ideal) x0 x1 x2 (lidx_main_v12 i k)) (fun k => x3 (ridx_main_v12 i k))
    (x4 (idx_main_v13 (idx_main_v14 i))) ?_ ?_ ?_ ?_ ?_
  · -- the joined row's first 128 entries are the source-node row's
    intro k
    show val_main_v11 (F := Ideal) x0 x1 x2 (lidx_main_v12 i (Fin.castAdd 64 k)) = _
    unfold val_main_v11
    rw [gathered_eq]
    exact concatenate_pair_apply_left (t := S640000x192) (s₁ := S640000x128) (s₂ := S640000x64) (1 : Fin 2) _ _ _
      (lidx_main_v12 i (Fin.castAdd 64 k)) rfl (ix2 ⟨(i 0).val, idx2_lt0 i⟩ k) (fun b => by
      match b with
      | ⟨0, _⟩ => rfl
      | ⟨1, _⟩ => rfl)
  · -- the weight matrix's first 128 rows
    intro k
    show x3 (ridx_main_v12 i (Fin.castAdd 64 k)) = _
    unfold nodeWeights
    refine Eq.trans ?_ (slice2_axis0_apply 0 x3 Cert.KernelIdeal.Facts₀.slices_S192x128_S128x128_0_0 k ⟨(i 1).val, idx2_lt1 i⟩ ⟨k.val, by omega⟩ (Nat.zero_add _).symm).symm
    exact congrArg x3 (funext fun a => by
      match a with
      | ⟨0, _⟩ => rfl
      | ⟨1, _⟩ => rfl)
  · -- the joined row's last 64 entries are the edge-feature row's
    intro k
    show val_main_v11 (F := Ideal) x0 x1 x2 (lidx_main_v12 i (Fin.natAdd 128 k)) = _
    unfold val_main_v11
    exact concatenate_pair_apply_right (t := S640000x192) (s₁ := S640000x128) (s₂ := S640000x64) (1 : Fin 2) _ _ _
      (lidx_main_v12 i (Fin.natAdd 128 k)) rfl rfl (ix2 ⟨(i 0).val, idx2_lt0 i⟩ k) (fun b hb => by
      match b with
      | ⟨0, _⟩ => rfl
      | ⟨1, _⟩ => exact absurd rfl hb) (Nat.add_comm _ _)
  · -- the weight matrix's last 64 rows
    intro k
    show x3 (ridx_main_v12 i (Fin.natAdd 128 k)) = _
    unfold edgeWeights
    refine Eq.trans ?_ (slice2_axis0_apply 128 x3 Cert.KernelIdeal.Facts₀.slices_S192x128_S64x128_128_0 k ⟨(i 1).val, idx2_lt1 i⟩ ⟨128 + k.val, by omega⟩ rfl).symm
    exact congrArg x3 (funext fun a => by
      match a with
      | ⟨0, _⟩ => rfl
      | ⟨1, _⟩ => rfl)
  · -- the bias of the output column
    unfold biasRow
    refine Eq.trans ?_ (shapeCast_a_1a_apply x4 Cert.KernelIdeal.Facts₀.shapeCasts_S128_S1x128 (0 : Fin 1) ⟨(i 1).val, idx2_lt1 i⟩).symm
    exact congrArg x4 (funext fun a => by
      match a with
      | ⟨0, _⟩ => rfl)

/-- Both programs average over incoming edges by the same lines. -/
theorem nodeMean_eq (x0 : (⟨S10000x128, .f32⟩ : BufTy).Contents (Elt Ideal)) (x1 : (⟨S2x640000, .i32⟩ : BufTy).Contents (Elt Ideal))
    (x2 : (⟨S640000x64, .f32⟩ : BufTy).Contents (Elt Ideal)) (x3 : (⟨S192x128, .f32⟩ : BufTy).Contents (Elt Ideal))
    (x4 : (⟨S128, .f32⟩ : BufTy).Contents (Elt Ideal)) :
    nodeMean x1 (val_main_v15 (F := Ideal) x0 x1 x2 x3 x4) = val_main_v27 (F := Ideal) x0 x1 x2 x3 x4 := rfl

end Cert.Bridge

end
-- ==== Proof.lean ====
/-
  An edge-conditioned graph layer: for every edge, the feature row of its source node joined with the edge's own
  features goes through one linear map; every node then receives the mean of the outputs of its incoming edges.

  The reference multiplies the joined row (192 numbers) with the whole weight matrix. The tiled program never
  forms the joined row: tile by tile (12800 edges at a time, fifty tiles) it multiplies the source-node rows
  with the first 128 rows of the weight matrix and the edge-feature rows with its last 64 rows, and adds the two
  products and the bias. Over the extended reals the two agree entry by entry, because a sum of 192 consecutive
  terms is the sum of its first 128 and its last 64 terms — addition of extended reals is commutative and
  associative, so the inputs need not be finite for this — and every change of float format on the tiled
  program's way into its products is the identity there. The row lookup by source index before, and the
  averaging over incoming edges after, are the same host lines in both programs, so they are carried along as
  one function of the edge outputs and never opened.

  The modules: `EdgeRow` (the layer as one function, and the sum cut in two), `Tile` (what one tile stores,
  entry by entry), `Blocks` (the fifty tiles fill the array of edge outputs), `Host` (the host lines before and
  after the tiled unit), `Whole` (the tiled program's run read as a value), `Bridge` (the tiled program's layer
  is the reference's). Here: the three runs' frames, and the two runs ending at one value.
-/
import proofs.«132562_j24575802868350_1_alg».proof.Defs
import proofs.«132562_j24575802868350_1_alg».proof.Proof.Gen.Kernel
import proofs.«132562_j24575802868350_1_alg».proof.Proof.Gen.Kernel.Skeleton
import proofs.«132562_j24575802868350_1_alg».proof.Proof.Gen.Kernel.Launch
import proofs.«132562_j24575802868350_1_alg».proof.Proof.Gen.Kernel.Points
import proofs.«132562_j24575802868350_1_alg».proof.Proof.Gen.Kernel.Frame
import proofs.«132562_j24575802868350_1_alg».proof.Proof.Gen.KernelIdeal
import proofs.«132562_j24575802868350_1_alg».proof.Proof.Gen.KernelIdeal.Skeleton
import proofs.«132562_j24575802868350_1_alg».proof.Proof.Gen.KernelIdeal.Launch
import proofs.«132562_j24575802868350_1_alg».proof.Proof.Gen.KernelIdeal.Points
import proofs.«132562_j24575802868350_1_alg».proof.Proof.Gen.KernelIdeal.Frame
import proofs.«132562_j24575802868350_1_alg».proof.Proof.Gen.ReferenceIdeal
import proofs.«132562_j24575802868350_1_alg».proof.Proof.Gen.ReferenceIdeal.Run
import proofs.«132562_j24575802868350_1_alg».proof.Proof.Gen.ReferenceIdeal.Read
import proofs.«132562_j24575802868350_1_alg».proof.Proof.Gen.Pre_finite_inputs
import proofs.«132562_j24575802868350_1_alg».proof.Proof.Whole
import proofs.«132562_j24575802868350_1_alg».proof.Proof.Bridge
import Idealize.ShloMosaic.Adequacy
import Idealize.ShloMosaic.Init

noncomputable section

namespace Cert.Proof

open Idealize.ShloMosaic Idealize.SL.Sem

/-- The tiled program, at machine words, runs and leaves its arguments alone. -/
theorem frame_kernel : Cert.frame_Kernel := fun m ρ _ => Cert.Kernel.Gen.frame m ρ

/-- So does it at the ideal values. -/
theorem frame_kernelIdeal : Cert.frame_KernelIdeal := fun m ρ _ => Cert.KernelIdeal.Gen.frame m ρ

/-- The reference runs and leaves its arguments alone: its run read as a value, the value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the tiled program at the ideal values rewrote none of its operations. -/
theorem preserves : Cert.preserves_Kernel_KernelIdeal := trivial

/-- From memories agreeing on the arguments both programs end at the reference's last stage of those arguments:
    the reference by its run, the tiled program by its run, its layer being the reference's and the averaging
    the same. -/
theorem algebraic : Cert.algebraic_KernelIdeal_ReferenceIdeal := by
  intro m ρ m' ρ' _ hagree
  refine ⟨fun c => Cert.ReferenceIdeal.Read.val_main_v27 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Whole.run m ρ)
    exact (congrArg (Cert.KernelIdeal.HostSide.nodeMean _) (Cert.Bridge.layer_eq_ref _ _ _ _ _)).trans
      (Cert.Bridge.nodeMean_eq _ _ _ _ _)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v27_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
